-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S1x16384 : Shape := ⟨2, ![1, 16384]⟩
abbrev S3x2048 : Shape := ⟨2, ![3, 2048]⟩
abbrev S1024x3 : Shape := ⟨2, ![1024, 3]⟩
abbrev S1x2048 : Shape := ⟨2, ![1, 2048]⟩
abbrev S2048 : Shape := ⟨1, ![2048]⟩
abbrev S1024 : Shape := ⟨1, ![1024]⟩
abbrev S1024x1 : Shape := ⟨2, ![1024, 1]⟩
abbrev S1024x2048 : Shape := ⟨2, ![1024, 2048]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S1x16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S3x2048, .f32⟩
  | .local _ .vmem, ⟨1, _⟩ => ⟨S3x2048, .f32⟩
  | .local _ .vmem, ⟨2, _⟩ => ⟨S1024x3, .f32⟩
  | .local _ .vmem, ⟨3, _⟩ => ⟨S1024x3, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x3_S3x16384_1_0 : S16384x3.Transposes [1, 0] S3x16384
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  inb_S1024x3_S1024x3_0_0 : ∀ a, (![0, 0] : Fin 2 → Nat) a + S1024x3.size a ≤ S1024x3.size a
  h_S1024x3 : 0 < S1024x3.numel
  reduces_S3x2048_S2048 : S3x2048.Reduces [0] S2048
  shapeCasts_S2048_S1x2048 : S2048.ShapeCasts S1x2048
  reduces_S1024x3_S1024 : S1024x3.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  reduces_S1024x2048_S2048 : S1024x2048.Reduces [0] S2048
  reducesTo_S1x16384_S_d0_1 : S1x16384.ReducesTo [0, 1] S_
  h_S_ : 0 < S_.numel
  dot_S1024x3_S3x2048_S1024x2048_1_0_0_1_n_n_wf : DotDims.WF S1024x3 S3x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048.size a ≤ S3x16384.size a
  hwx0_0 : ∀ i : grid0.Coords, EltTy.bits .f32 = 32 ∨ (Rect.block (s := S3x16384) S3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_v0) S3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S3x16384, .f32⟩
  | .hbm, ⟨9, _⟩ => ⟨S16384x16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Pieces.lean ====
/-
  What each kind of grid point leaves behind, as values.

  The kernel sweeps, for each block of 2048 predictions, the 16 blocks of 1024 targets.  Two buffers survive from one
  point of a sweep to the next: the running minimum of the clipped squared distances (one entry per prediction) and the
  squared norms of the predictions.  At the first block of a sweep the norms are computed and the minimum starts at
  `+∞`; at every block the minimum is lowered by that block's column minima; at the last block the output block is the
  square root of the minimum.  Here each of those contents is identified with the body's arithmetic applied to the
  point's input blocks and to what the previous point left: nothing about the arithmetic itself is used yet.
-/
import proofs.«124139_j48172353192475_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle target block (neither the first nor the last of a sweep): the running minimum `xs0` is replaced by its
    minimum with this block's column minima, computed against the cached squared norms `xs1`. -/
theorem acc_B (c : Dev nD) (i : grid0.Coords) (a2 : Memref sig .tc .vmem S3x2048 .f32) (h2 : a2.IsWhole) (a3 : Memref sig .tc .vmem S1024x3 .f32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (hc0 : ¬cond0_0 i) (hc1 : ¬cond0_1 i) (hc2 : ¬cond0_2 i) (x0 : Vec F S3x2048 .f32) (x1 : Vec F S1024x3 .f32) (xs0 xs1 : Vec F S1x2048 .f32) :
    sout0_B_0 c i a2 h2 a3 h3 a4 h4 a5 h5 a6 h6 hc0 hc1 hc2 x0 x1 xs0 xs1 = k0_pay4 x0 x1 xs1 xs0 := by
  unfold sout0_B_0
  rw [View.read_writes_eq_canon _ _ _ (scover0_B_0 c i a2 h2 a3 h3 a4 h4 a5 h5 a6 h6 hc0 hc1 hc2 x0 x1 xs0 xs1)]
  unfold kernelRun0_B
  dsimp only
  rw [View.canon_unit_zero hz]
  simp only [View.readAt_eq_ld, h2.read_unread, h3.read_unread, h5.read_unread, h6.read_unread, View.ld_unit_zero (S := S3x2048) hz, View.ld_unit_zero (S := S1024x3) hz, View.ld_unit_zero (S := S1x2048) hz]

/-- The last target block of a sweep: the running minimum is updated in the same way, -/
theorem acc_C (c : Dev nD) (i : grid0.Coords) (a2 : Memref sig .tc .vmem S3x2048 .f32) (h2 : a2.IsWhole) (a3 : Memref sig .tc .vmem S1024x3 .f32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (hc0 : ¬cond0_0 i) (hc1 : ¬cond0_1 i) (hc2 : cond0_2 i) (x0 : Vec F S3x2048 .f32) (x1 : Vec F S1024x3 .f32) (xs0 xs1 : Vec F S1x2048 .f32) :
    sout0_C_0 c i a2 h2 a3 h3 a4 h4 a5 h5 a6 h6 hc0 hc1 hc2 x0 x1 xs0 xs1 = k0_pay4 x0 x1 xs1 xs0 := by
  unfold sout0_C_0
  rw [View.read_writes_eq_canon _ _ _ (scover0_C_0 c i a2 h2 a3 h3 a4 h4 a5 h5 a6 h6 hc0 hc1 hc2 x0 x1 xs0 xs1)]
  unfold kernelRun0_C
  dsimp only
  sl_unfold_words
  rw [View.canon_unit_zero hz]
  simp only [View.readAt_eq_ld, h2.read_unread, h3.read_unread, h5.read_unread, h6.read_unread, View.ld_unit_zero (S := S3x2048) hz, View.ld_unit_zero (S := S1024x3) hz, View.ld_unit_zero (S := S1x2048) hz]

/-- and the output block is the square root of the updated running minimum. -/
theorem out_C (c : Dev nD) (i : grid0.Coords) (a2 : Memref sig .tc .vmem S3x2048 .f32) (h2 : a2.IsWhole) (a3 : Memref sig .tc .vmem S1024x3 .f32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (hc0 : ¬cond0_0 i) (hc1 : ¬cond0_1 i) (hc2 : cond0_2 i) (x0 : Vec F S3x2048 .f32) (x1 : Vec F S1024x3 .f32) (xs0 xs1 : Vec F S1x2048 .f32) :
    out0_C_2 c i a2 h2 a3 h3 a4 h4 a5 h5 a6 h6 hc0 hc1 hc2 x0 x1 xs0 xs1 = k0_pay5 (k0_pay4 x0 x1 xs1 xs0) := by
  unfold out0_C_2
  rw [View.read_writes_eq_canon _ _ _ (cover0_C_2 c i a2 h2 a3 h3 a4 h4 a5 h5 a6 h6 hc0 hc1 hc2 x0 x1 xs0 xs1)]
  unfold kernelRun0_C
  dsimp only
  sl_unfold_words
  rw [View.canon_unit_zero hz]
  simp only [View.readCov_unit_zero (S := S1x2048) _ hz, View.readAt_eq_ld, h2.read_unread, h3.read_unread, h5.read_unread, h6.read_unread, View.ld_unit_zero (S := S3x2048) hz, View.ld_unit_zero (S := S1024x3) hz, View.ld_unit_zero (S := S1x2048) hz]

/-- The first target block of a sweep: the squared norms of the prediction block are computed and cached, -/
theorem norms_A (c : Dev nD) (i : grid0.Coords) (a2 : Memref sig .tc .vmem S3x2048 .f32) (h2 : a2.IsWhole) (a3 : Memref sig .tc .vmem S1024x3 .f32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (hc0 : cond0_0 i) (hc1 : cond0_1 i) (hc2 : ¬cond0_2 i) (x0 : Vec F S3x2048 .f32) (x1 : Vec F S1024x3 .f32) :
    sout0_A_1 c i a2 h2 a3 h3 a4 h4 a5 h5 a6 h6 hc0 hc1 hc2 x0 x1 = k0_pay3 x0 := by
  unfold sout0_A_1
  rw [View.read_writes_eq_canon _ _ _ (scover0_A_1 c i a2 h2 a3 h3 a4 h4 a5 h5 a6 h6 hc0 hc1 hc2 x0 x1)]
  unfold kernelRun0_A
  dsimp only
  sl_unfold_words
  rw [View.canon_unit_zero hz]
  simp only [View.readAt_eq_ld, h2.read_unread, h3.read_unread, h5.read_unread, h6.read_unread, View.ld_unit_zero (S := S3x2048) hz, View.ld_unit_zero (S := S1024x3) hz, View.ld_unit_zero (S := S1x2048) hz]

/-- and the running minimum, started at `+∞`, is lowered by the first block's column minima against those norms. -/
theorem acc_A (c : Dev nD) (i : grid0.Coords) (a2 : Memref sig .tc .vmem S3x2048 .f32) (h2 : a2.IsWhole) (a3 : Memref sig .tc .vmem S1024x3 .f32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (hc0 : cond0_0 i) (hc1 : cond0_1 i) (hc2 : ¬cond0_2 i) (x0 : Vec F S3x2048 .f32) (x1 : Vec F S1024x3 .f32) :
    sout0_A_0 c i a2 h2 a3 h3 a4 h4 a5 h5 a6 h6 hc0 hc1 hc2 x0 x1 = k0_pay4 x0 x1 (k0_pay3 x0) k0_pay1 := by
  unfold sout0_A_0
  rw [View.read_writes_eq_canon _ _ _ (scover0_A_0 c i a2 h2 a3 h3 a4 h4 a5 h5 a6 h6 hc0 hc1 hc2 x0 x1)]
  unfold kernelRun0_A
  dsimp only
  sl_unfold_words
  rw [View.canon_cons_unit_zero (S := S1x2048) hz]
  simp only [View.readCov_unit_zero (S := S1x2048) _ hz, View.readAt_eq_ld, h2.read_unread, h3.read_unread, h5.read_unread, h6.read_unread, View.ld_unit_zero (S := S3x2048) hz, View.ld_unit_zero (S := S1024x3) hz, View.ld_unit_zero (S := S1x2048) hz]

end Cert.KernelIdeal.Pieces

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Payloads.lean ====
/-
  The body's arithmetic read one entry at a time, at the ideal floats.

  For the prediction in lane `c` of the block `x0` (coordinates along axis 0) and the 1024 targets in the rows of the
  block `x1`: the cached norm is the sum of the three squared coordinates of the prediction; the updated running
  minimum is the smaller of the old one and the minimum over the rows `r` of
      max ((|x1_r|² + norm) - 2 · ⟨x1_r, x0_c⟩) 0;
  and the output is the square root of the running minimum.  The row norms arrive as a column broadcast over the
  lanes, the cached norms as a row broadcast over the rows, the inner products as one matrix product.
-/
import proofs.«124139_j48172353192475_2_alg».proof.Proof.Gen.KernelIdeal.Skeleton
import proofs.«124139_j48172353192475_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- The running minimum starts at `+∞` in every lane. -/
theorem start_apply (y : S1x2048.Idx) : k0_pay1 (F := Ideal) y = ⊤ := by
  unfold k0_pay1
  rw [shapeCast_self]
  exact ofBits_inf_f32

/-- The squared norm of the prediction in lane `c`: the sum over the three coordinates of their squares. -/
theorem norm_apply (x0 : FVec Ideal S3x2048 .f32) (c : Fin 2048) :
    k0_pay3 x0 (ix2 (0 : Fin 1) c) = ∑ d : Fin 3, x0 (ix2 d c) * x0 (ix2 d c) := by
  unfold k0_pay3 k0_pay2
  simp only [shapeCast_self]
  refine (shapeCast_a_1a_apply _ _ (0 : Fin 1) c).trans ?_
  refine (Ideal.multiReduction_add_single _ _ reduces_S3x2048_S2048 _ _ (ix1 c)).trans ?_
  refine Finset.sum_congr rfl fun d _ => ?_
  have e : reduces_S3x2048_S2048.lift (ix1 c) d = ix2 d c :=
    funext fun a => Fin.ext (by match a with | ⟨0, _⟩ => rfl | ⟨1, _⟩ => rfl)
  rw [e]
  rfl

/-- The squared norm of the target in row `r`, as the column of row norms broadcast over the lanes reads it. -/
theorem rowNorm_apply (x1 : FVec Ideal S1024x3 .f32) (r : Fin 1024) (c : Fin 2048) :
    broadcastTo S1024x2048 (shapeCast S1024x1 (multiReduction .add [1] S1024 (mulf x1 x1) 0x00000000#32
        reduces_S1024x3_S1024 (.inl rfl) rfl) shapeCasts_S1024_S1024x1) broadcasts_S1024x1_S1024x2048 (ix2 r c)
      = ∑ d : Fin 3, x1 (ix2 r d) * x1 (ix2 r d) := by
  refine (broadcastTo_a1_ab_apply _ _ r c).trans ?_
  refine (shapeCast_a_a1_apply _ _ r (0 : Fin 1)).trans ?_
  refine (Ideal.multiReduction_add_single _ _ reduces_S1024x3_S1024 _ _ (ix1 r)).trans ?_
  refine Finset.sum_congr rfl fun d _ => ?_
  have e : reduces_S1024x3_S1024.lift (ix1 r) d = ix2 r d :=
    funext fun a => Fin.ext (by match a with | ⟨0, _⟩ => rfl | ⟨1, _⟩ => rfl)
  rw [e]
  rfl

theorem lhs_row (i : S1024x2048.Idx) (q : dot_S1024x3_S3x2048_S1024x2048_1_0_0_1_n_n.contr.Idx) : (dot_S1024x3_S3x2048_S1024x2048_1_0_0_1_n_n.lhsIdx i q 0).val = (i 0).val := by
  unfold DotDims.lhsIdx
  rw [dif_neg (show ¬(0 : Fin S1024x3.rank) ∈ dot_S1024x3_S3x2048_S1024x2048_1_0_0_1_n_n.lhsBatch by decide), dif_pos (show (0 : Fin S1024x3.rank) ∈ dot_S1024x3_S3x2048_S1024x2048_1_0_0_1_n_n.lhsNonContracting by decide)]
  rfl

theorem rhs_col (i : S1024x2048.Idx) (q : dot_S1024x3_S3x2048_S1024x2048_1_0_0_1_n_n.contr.Idx) : (dot_S1024x3_S3x2048_S1024x2048_1_0_0_1_n_n.rhsIdx i q 1).val = (i 1).val := by
  unfold DotDims.rhsIdx
  rw [dif_neg (show ¬(1 : Fin S3x2048.rank) ∈ dot_S1024x3_S3x2048_S1024x2048_1_0_0_1_n_n.rhsBatch by decide), dif_pos (show (1 : Fin S3x2048.rank) ∈ dot_S1024x3_S3x2048_S1024x2048_1_0_0_1_n_n.rhsNonContracting by decide)]
  rfl

/-- The inner product of the target in row `r` with the prediction in lane `c`: entry `(r, c)` of the matrix product
    into a zero accumulator. -/
theorem inner_apply (x1 : FVec Ideal S1024x3 .f32) (x0 : FVec Ideal S3x2048 .f32) (r : Fin 1024) (c : Fin 2048) :
    matmul dot_S1024x3_S3x2048_S1024x2048_1_0_0_1_n_n (some .fp32) x1 x0 (constant S1024x2048 .f32 0x00000000#32) (ix2 r c)
      = ∑ d : Fin 3, x1 (ix2 r d) * x0 (ix2 d c) := by
  simp only [matmul]
  rw [Ideal.matmul_constant_zero_apply, ← Equiv.sum_comp (ValueIdx.contrEquiv1 dot_S1024x3_S3x2048_S1024x2048_1_0_0_1_n_n 3 rfl rfl).symm]
  refine Finset.sum_congr rfl fun k _ => ?_
  have hk := ValueIdx.contrEquiv1_symm_val dot_S1024x3_S3x2048_S1024x2048_1_0_0_1_n_n 3 rfl rfl k
  have el : dot_S1024x3_S3x2048_S1024x2048_1_0_0_1_n_n.lhsIdx (ix2 r c) ((ValueIdx.contrEquiv1 dot_S1024x3_S3x2048_S1024x2048_1_0_0_1_n_n 3 rfl rfl).symm k) = ix2 r k := funext fun a => Fin.ext (by
    match a with
    | ⟨0, _⟩ => exact lhs_row _ _
    | ⟨1, _⟩ => exact (dot_S1024x3_S3x2048_S1024x2048_1_0_0_1_n_n.lhsIdx_val_of_single rfl _ _).trans hk)
  have er : dot_S1024x3_S3x2048_S1024x2048_1_0_0_1_n_n.rhsIdx (ix2 r c) ((ValueIdx.contrEquiv1 dot_S1024x3_S3x2048_S1024x2048_1_0_0_1_n_n 3 rfl rfl).symm k) = ix2 k c := funext fun a => Fin.ext (by
    match a with
    | ⟨0, _⟩ => exact (dot_S1024x3_S3x2048_S1024x2048_1_0_0_1_n_n.rhsIdx_val_of_single rfl _ _).trans hk
    | ⟨1, _⟩ => exact rhs_col _ _)
  rw [el, er]

/-- The clipped squared distance at row `r`, lane `c`, from the row's norm, the lane's cached norm `v13` and their
    inner product. -/
def entry (x0 : FVec Ideal S3x2048 .f32) (x1 : FVec Ideal S1024x3 .f32) (v13 : FVec Ideal S1x2048 .f32) (c : Fin 2048)
    (r : Fin 1024) : EReal :=
  max ((∑ d : Fin 3, x1 (ix2 r d) * x1 (ix2 r d)) + v13 (ix2 (0 : Fin 1) c)
      - Ideal.ofBits .f32 0x40000000#32 * ∑ d : Fin 3, x1 (ix2 r d) * x0 (ix2 d c)) (Ideal.ofBits .f32 0x00000000#32)

/-- The updated running minimum in lane `c`: the smaller of the old one `v24` and the minimum over the 1024 rows of
    the clipped squared distances. -/
theorem update_apply (x0 : FVec Ideal S3x2048 .f32) (x1 : FVec Ideal S1024x3 .f32) (v13 v24 : FVec Ideal S1x2048 .f32)
    (c : Fin 2048) :
    k0_pay4 x0 x1 v13 v24 (ix2 (0 : Fin 1) c)
      = min (v24 (ix2 (0 : Fin 1) c)) ((Finset.univ : Finset (Fin 1024)).fold min ⊤ (entry x0 x1 v13 c)) := by
  unfold k0_pay4 k0_pay2
  simp only [shapeCast_self]
  refine congrArg (min (v24 (ix2 (0 : Fin 1) c))) ?_
  refine (shapeCast_a_1a_apply _ _ (0 : Fin 1) c).trans ?_
  refine (multiReduction_minimumf_single _ _ reduces_S1024x2048_S2048 _ _ (ix1 c)).trans ?_
  rw [show FloatOps.ofBits (F := Ideal) .f32 0x7F800000#32 = ⊤ from ofBits_inf_f32]
  refine congrArg (fun f => Finset.fold min ⊤ f Finset.univ) (funext fun r => ?_)
  have e : reduces_S1024x2048_S2048.lift (ix1 c) r = ix2 r c :=
    funext fun a => Fin.ext (by match a with | ⟨0, _⟩ => rfl | ⟨1, _⟩ => rfl)
  show _ = entry x0 x1 v13 c r
  rw [Function.comp_apply, e]
  unfold entry
  refine congrArg₂ max (congrArg₂ (· - ·) (congrArg₂ (· + ·) ?_ ?_) (congrArg₂ (· * ·) rfl ?_)) rfl
  · exact rowNorm_apply x1 r c
  · exact broadcastTo_1b_ab_apply _ _ r c
  · exact inner_apply x1 x0 r c

/-- The output in lane `c` is the square root of the running minimum there. -/
theorem root_apply (v : FVec Ideal S1x2048 .f32) (y : S1x2048.Idx) : k0_pay5 (F := Ideal) v y = Ideal.sqrt (v y) := rfl

end Cert.KernelIdeal.Payloads

end
-- ==== Proof.Spec.lean ====
/-
  The mathematics both programs compute, stated once over plain index types.

  Two clouds of 16384 points in 3-space, `P` (the predictions) and `T` (the targets), entries extended reals.
  For a prediction `i` and a target `j` the clipped squared distance is
      sqDist i j = max (|T_j|² + |P_i|² - 2 · ⟨T_j, P_i⟩) 0,
  the squared norms and the inner product being sums of three products.  The result is the mean over `i` of
  `√(inf_j sqDist i j)`: the distance from each prediction to its nearest target.

  One program takes the infimum of the squared distances, a block of targets at a time, and the root once at the
  end; the other takes the root of every squared distance and then the infimum.  They agree because the square
  root, as extended by the ideal floats (`⊥` below zero, `⊤` at `⊤`), is monotone on ALL extended reals, so it
  commutes with `min`, and it fixes `⊤`, the empty infimum.  No finiteness of the inputs is used: only
  commutativity of `+` and `·` and the lattice laws of `min`.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-! ## The infimum over a run of consecutive positions -/

/-- The infimum of `f` over the `n` positions `a, a + 1, …, a + n - 1` (`⊤` for an empty run). -/
def segInf (f : ℕ → EReal) (a n : ℕ) : EReal := (Finset.range n).inf fun k => f (a + k)

theorem segInf_zero (f : ℕ → EReal) (a : ℕ) : segInf f a 0 = ⊤ := by
  unfold segInf; rw [Finset.range_zero, Finset.inf_empty]

/-- One more position at the end of the run. -/
theorem segInf_succ (f : ℕ → EReal) (a n : ℕ) : segInf f a (n + 1) = min (segInf f a n) (f (a + n)) := by
  unfold segInf; rw [Finset.range_add_one, Finset.inf_insert, min_comm]

/-- A run cut in two: the infimum of the whole is the smaller of the two parts' infima. -/
theorem segInf_add (f : ℕ → EReal) (a n m : ℕ) :
    segInf f a (n + m) = min (segInf f a n) (segInf f (a + n) m) := by
  induction m with
  | zero => rw [Nat.add_zero, segInf_zero, min_top_right]
  | succ m ih => rw [← Nat.add_assoc, segInf_succ, ih, segInf_succ, min_assoc, Nat.add_assoc]

/-- The infimum over `Fin n` of a family that is `f` along a run is the run's infimum. -/
theorem inf_univ_eq_segInf {n : ℕ} (g : Fin n → EReal) (f : ℕ → EReal) (a : ℕ) (h : ∀ k : Fin n, g k = f (a + k.val)) :
    Finset.univ.inf g = segInf f a n := by
  unfold segInf
  apply le_antisymm
  · refine Finset.le_inf fun k hk => ?_
    have hk' : k < n := Finset.mem_range.mp hk
    exact (Finset.inf_le (Finset.mem_univ (⟨k, hk'⟩ : Fin n))).trans (le_of_eq (h ⟨k, hk'⟩))
  · refine Finset.le_inf fun k _ => ?_
    rw [h k]
    exact Finset.inf_le (f := fun k => f (a + k)) (Finset.mem_range.mpr k.isLt)

/-- A fold of `min` from `⊤` is the infimum. -/
theorem fold_min_top {ι : Type} (s : Finset ι) (g : ι → EReal) : s.fold min ⊤ g = s.inf g := rfl

/-- Two runs of equal length whose terms agree position by position have the same infimum. -/
theorem segInf_congr (f g : ℕ → EReal) (a b n : ℕ) (h : ∀ k, k < n → f (a + k) = g (b + k)) :
    segInf f a n = segInf g b n := by
  unfold segInf
  exact Finset.inf_congr rfl fun k hk => h k (Finset.mem_range.mp hk)

/-! ## The square root of the ideal floats is monotone -/

theorem sqrt_mono : Monotone Ideal.sqrt := by
  intro x y hxy
  induction x using EReal.rec with
  | bot => rw [Ideal.sqrt_bot]; exact bot_le
  | top =>
    have hy : y = ⊤ := top_le_iff.mp hxy
    rw [hy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := not_lt.mpr (le_trans (not_lt.mp hr) hrs)
        rw [if_neg hr, if_neg hs]
        exact EReal.coe_le_coe_iff.mpr (Real.sqrt_le_sqrt hrs)

/-- So it commutes with `min`, -/
theorem sqrt_min (a b : EReal) : Ideal.sqrt (min a b) = min (Ideal.sqrt a) (Ideal.sqrt b) := sqrt_mono.map_min

/-- and, fixing `⊤`, with the infimum over a run. -/
theorem sqrt_segInf (f : ℕ → EReal) (a n : ℕ) :
    Ideal.sqrt (segInf f a n) = segInf (fun k => Ideal.sqrt (f k)) a n := by
  induction n with
  | zero => rw [segInf_zero, segInf_zero, Ideal.sqrt_top]
  | succ n ih => rw [segInf_succ, segInf_succ, sqrt_min, ih]

/-! ## The clouds and the distance -/

/-- A cloud of 16384 points in 3-space. -/
abbrev Cloud : Type := (⟨2, ![16384, 3]⟩ : Shape).Idx → EReal

/-- Coordinate `d` of point `i` (zero past the last point: no such position is ever read). -/
def coord (A : Cloud) (i : ℕ) (d : Fin 3) : EReal := if h : i < 16384 then A (ix2 ⟨i, h⟩ d) else 0

theorem coord_of_lt (A : Cloud) (i : ℕ) (h : i < 16384) (d : Fin 3) : coord A i d = A (ix2 ⟨i, h⟩ d) := dif_pos h

/-- The squared norm of point `i`. -/
def sqNorm (A : Cloud) (i : ℕ) : EReal := ∑ d : Fin 3, coord A i d * coord A i d

/-- The inner product of target `j` with prediction `i`. -/
def inner (T P : Cloud) (j i : ℕ) : EReal := ∑ d : Fin 3, coord T j d * coord P i d

/-- The clipped squared distance from prediction `i` to target `j`; the factor two and the clip at zero are the
    float words both programs print, never evaluated. -/
def sqDist (P T : Cloud) (i j : ℕ) : EReal :=
  max (sqNorm T j + sqNorm P i - Ideal.ofBits .f32 0x40000000#32 * inner T P j i) (Ideal.ofBits .f32 0x00000000#32)

/-- The distance from prediction `i` to its nearest target. -/
def nearest (P T : Cloud) (i : ℕ) : EReal := Ideal.sqrt (segInf (sqDist P T i) 0 16384)

/-- The mean of the 16384 values `s` sums, as both programs' last three host lines compute it from the sum:
    `1 · ((0 + s) / 16384)`, the constants the printed words. -/
def meanOf (s : EReal) : (⟨0, ![]⟩ : Shape).Idx → EReal :=
  mulf (constant (F := Ideal) ⟨0, ![]⟩ .f32 0x3F800000#32)
    (Host.divf (fun _ => Ideal.ofBits .f32 0x00000000#32 + s) (constant (F := Ideal) ⟨0, ![]⟩ .f32 0x46800000#32))

/-- The loss: the mean distance from a prediction to its nearest target. -/
def loss (P T : Cloud) : (⟨0, ![]⟩ : Shape).Idx → EReal := meanOf (∑ i : Fin 16384, nearest P T i.val)

end Chamfer

end
-- ==== Proof.Blocks.lean ====
/-
  The blocks the pipeline hands the body, read entry by entry from the two clouds.

  The grid has 8 × 16 points, visited row by row: point `t` works on prediction block `t / 16` (2048 predictions,
  one per lane) and target block `t % 16` (1024 targets, one per row).  The predictions reach the kernel transposed,
  coordinates along axis 0, so entry `(d, l)` of the prediction block at `t` is coordinate `d` of prediction
  `2048 · (t / 16) + l`, and entry `(r, d)` of the target block is coordinate `d` of target `1024 · (t % 16) + r`.
-/
import proofs.«124139_j48172353192475_2_alg».proof.Proof.Gen.KernelIdeal.Frame
import proofs.«124139_j48172353192475_2_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Chamfer

variable (m : (ℓ : Loc nD τ sig) → Buf (Elt Ideal) ℓ)

/-- Which block of its array each window holds at point `t`, decided once over the grid. -/
theorem index_facts : ∀ t : Fin cfg0.N,
    win0_0.index t (0 : Fin 2) = 0 ∧ win0_0.index t (1 : Fin 2) = t.val / 16
    ∧ win0_1.index t (0 : Fin 2) = t.val % 16 ∧ win0_1.index t (1 : Fin 2) = 0
    ∧ win0_2.index t (0 : Fin 2) = 0 ∧ win0_2.index t (1 : Fin 2) = t.val / 16 :=
  (by decide +kernel : ∀ t : Fin grid0.N, _)

/-- The array the first window is cut from is the prediction cloud transposed. -/
theorem entry_transposed (c : Dev nD) : (V m c main_v0 : S3x16384.Idx → EReal)
    = transpose S3x16384 [1, 0] (m ((c : Thread nD τ).loc main_arg0)) transposes_S16384x3_S3x16384_1_0 := by
  show StableHlo.after hostOps0 (fun b => m (c, b)) (Proc.devRef .tc main_v0) = _
  after_results

/-- Entry `(d, l)` of the prediction block at point `t`. -/
theorem pred_block (c : Dev nD) (t : Fin cfg0.N) (d : Fin 3) (l : Fin 2048) :
    (iblk m c 0 t : Vec Ideal S3x2048 .f32) (ix2 d l)
      = coord (m ((c : Thread nD τ).loc main_arg0)) (2048 * (t.val / 16) + l.val) d := by
  obtain ⟨e0, e1, -, -, -, -⟩ := index_facts t
  have hN : t.val < 128 := lt_of_lt_of_eq t.isLt (show cfg0.N = 128 from N_0)
  have hl : l.val < 2048 := l.isLt
  have hd : d.val < 3 := d.isLt
  have hlt : 2048 * (t.val / 16) + l.val < 16384 := by omega
  rw [coord_of_lt _ _ hlt]
  unfold iblk
  rw [View.read_apply]
  show (V m c main_v0 : S3x16384.Idx → EReal) (((cfg0.win 0).blk t).view.emb (ix2 d l)) = _
  rw [entry_transposed]
  refine transpose_apply [1, 0] _ transposes_S16384x3_S3x16384_1_0 _ (ix2 ⟨2048 * (t.val / 16) + l.val, hlt⟩ d) fun b => ?_
  match b with
  | ⟨0, _⟩ => show d.val = win0_0.index t (0 : Fin 2) * 3 + 1 * d.val; rw [e0]; omega
  | ⟨1, _⟩ => show 2048 * (t.val / 16) + l.val = win0_0.index t (1 : Fin 2) * 2048 + 1 * l.val; rw [e1]; omega

/-- Entry `(r, d)` of the target block at point `t`. -/
theorem target_block (c : Dev nD) (t : Fin cfg0.N) (r : Fin 1024) (d : Fin 3) :
    (iblk m c 1 t : Vec Ideal S1024x3 .f32) (ix2 r d)
      = coord (m ((c : Thread nD τ).loc main_arg1)) (1024 * (t.val % 16) + r.val) d := by
  obtain ⟨-, -, e2, e3, -, -⟩ := index_facts t
  have hr : r.val < 1024 := r.isLt
  have hd : d.val < 3 := d.isLt
  have hlt : 1024 * (t.val % 16) + r.val < 16384 := by omega
  rw [coord_of_lt _ _ hlt]
  unfold iblk
  rw [View.read_apply]
  show V m c main_arg1 (((cfg0.win 1).blk t).view.emb (ix2 r d)) = _
  rw [V_main_arg1]
  refine congrArg (m ((c : Thread nD τ).loc main_arg1)) (funext fun a => Fin.ext ?_)
  match a with
  | ⟨0, _⟩ => show win0_1.index t (0 : Fin 2) * 1024 + 1 * r.val = 1024 * (t.val % 16) + r.val; rw [e2]; omega
  | ⟨1, _⟩ => show win0_1.index t (1 : Fin 2) * 3 + 1 * d.val = d.val; rw [e3]; omega

end Cert.KernelIdeal.Blocks

end
-- ==== Proof.Sweep.lean ====
/-
  The sweep over the target blocks, as an invariant of the grid.

  After the body at point `t` — prediction block `t / 16`, target block `t % 16` — the two buffers the kernel carries
  from point to point hold, in lane `l` (prediction `i = 2048 · (t / 16) + l`):
    • the running minimum: the infimum of the clipped squared distances from `i` to the first
      `1024 · (t % 16) + 1024` targets;
    • the cached norm: the squared norm of `i`.
  At the first block of a sweep both are computed afresh (the minimum from `⊤`, the empty infimum); at a later block
  the minimum over the targets seen so far is lowered by the block's own infimum — a run of targets cut in two — and
  the norms are kept.  At the last block the output is the square root of the infimum over all 16384 targets.
-/
import proofs.«124139_j48172353192475_2_alg».proof.Proof.Pieces
import proofs.«124139_j48172353192475_2_alg».proof.Proof.Payloads
import proofs.«124139_j48172353192475_2_alg».proof.Proof.Blocks

noncomputable section

open Idealize.ShloMosaic Idealize.ShloMosaic.TcCoe Idealize.SL.Sem Idealize.ShloMosaic.ValueIdx

namespace Cert.KernelIdeal.Sweep

open Cert.KernelIdeal Cert.KernelIdeal.Gen Chamfer

/-! ## One step, in the clouds' own terms -/

/-- The cached norm of the prediction in lane `l`, when the lane's column of the block holds prediction `i`. -/
theorem norm_spec (P : Cloud) (x0 : FVec Ideal S3x2048 .f32) (l : Fin 2048) (i : ℕ)
    (hx0 : ∀ d, x0 (ix2 d l) = coord P i d) : k0_pay3 (F := Ideal) x0 (ix2 (0 : Fin 1) l) = sqNorm P i := by
  rw [Payloads.norm_apply]
  unfold sqNorm
  simp only [hx0]

/-- The running minimum after a block of 1024 targets starting at target `b`: if it was the infimum over the first
    `b` targets, it is now the infimum over the first `b + 1024`. -/
theorem update_spec (P T : Cloud) (x0 : FVec Ideal S3x2048 .f32) (x1 : FVec Ideal S1024x3 .f32)
    (v13 v24 : FVec Ideal S1x2048 .f32) (l : Fin 2048) (i b : ℕ)
    (hx0 : ∀ d, x0 (ix2 d l) = coord P i d) (hx1 : ∀ r d, x1 (ix2 r d) = coord T (b + r.val) d)
    (h13 : v13 (ix2 (0 : Fin 1) l) = sqNorm P i) (h24 : v24 (ix2 (0 : Fin 1) l) = segInf (sqDist P T i) 0 b) :
    k0_pay4 (F := Ideal) x0 x1 v13 v24 (ix2 (0 : Fin 1) l) = segInf (sqDist P T i) 0 (b + 1024) := by
  rw [Payloads.update_apply, h24, segInf_add, Nat.zero_add, fold_min_top]
  refine congrArg (min _) (inf_univ_eq_segInf _ _ b fun r => ?_)
  unfold Payloads.entry
  simp only [hx0, hx1, h13]
  rfl

/-! ## What each kind of point leaves, from the generated accumulation -/

variable (m : (ℓ : Loc nD τ sig) → Buf (Elt Ideal) ℓ)

/-- The first block of a sweep. -/
theorem first_block (c : Dev nD) (t : Fin cfg0.N) (h0 : t.val % 16 = 0) (h2 : ¬t.val % 16 = 15) :
    (outsAt0 m c t.val t.isLt).2.1 = k0_pay4 (iblk m c 0 t) (iblk m c 1 t) (k0_pay3 (iblk m c 0 t)) (k0_pay1 (F := Ideal))
    ∧ (outsAt0 m c t.val t.isLt).2.2 = k0_pay3 (iblk m c 0 t) := by
  rw [outsAt0_A m c t h0 h0 h2]
  dsimp only
  constructor
  · exact Pieces.acc_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h0) (fun h => h2 ((hcond0_2 t).mp h)) (iblk m c 0 t) (iblk m c 1 t)
  · exact Pieces.norms_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) ((hcond0_1 t).mpr h0) (fun h => h2 ((hcond0_2 t).mp h)) (iblk m c 0 t) (iblk m c 1 t)

/-- A middle block. -/
theorem middle_block (c : Dev nD) (t : Fin cfg0.N) (h0 : ¬t.val % 16 = 0) (h2 : ¬t.val % 16 = 15) :
    (outsAt0 m c t.val t.isLt).2.1 = k0_pay4 (iblk m c 0 t) (iblk m c 1 t) (outsAt0 m c (t.val - 1) (Nat.lt_of_le_of_lt (Nat.sub_le _ _) t.isLt)).2.2 (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0 h0 h2]
  dsimp only
  constructor
  · exact Pieces.acc_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h0 ((hcond0_1 t).mp h)) (fun h => h2 ((hcond0_2 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  · unfold sout0_B_1; rfl

/-- The last block of a sweep. -/
theorem last_block (c : Dev nD) (t : Fin cfg0.N) (h0 : ¬t.val % 16 = 0) (h2 : t.val % 16 = 15) :
    (outsAt0 m c t.val t.isLt).2.1 = k0_pay4 (iblk m c 0 t) (iblk m c 1 t) (outsAt0 m c (t.val - 1) (Nat.lt_of_le_of_lt (Nat.sub_le _ _) t.isLt)).2.2 (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2
    ∧ (outsAt0 m c t.val t.isLt).1 = k0_pay5 (outsAt0 m c t.val t.isLt).2.1 := by
  rw [outsAt0_C m c t h0 h0 h2]
  dsimp only
  refine ⟨?_, ?_, ?_⟩
  · exact Pieces.acc_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h0 ((hcond0_1 t).mp h)) ((hcond0_2 t).mpr h2) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2
  · unfold sout0_C_1; rfl
  · refine (Pieces.out_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h0 ((hcond0_1 t).mp h)) ((hcond0_2 t).mpr h2) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).trans ?_
    exact congrArg k0_pay5 (Pieces.acc_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h0 ((hcond0_1 t).mp h)) ((hcond0_2 t).mpr h2) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2).symm

/-! ## The invariant -/

/-- What the carried buffers hold after the body at position `n`. -/
def Holds (c : Dev nD) (n : ℕ) (hn : n < cfg0.N) : Prop :=
  ∀ l : Fin 2048,
    (outsAt0 m c n hn).2.1 (ix2 (0 : Fin 1) l)
        = segInf (sqDist (m ((c : Thread nD τ).loc main_arg0)) (m ((c : Thread nD τ).loc main_arg1)) (2048 * (n / 16) + l.val)) 0
            (1024 * (n % 16) + 1024)
    ∧ (outsAt0 m c n hn).2.2 (ix2 (0 : Fin 1) l) = sqNorm (m ((c : Thread nD τ).loc main_arg0)) (2048 * (n / 16) + l.val)

/-- It holds after the first block of every sweep, -/
theorem holds_first (c : Dev nD) (t : Fin cfg0.N) (h0 : t.val % 16 = 0) : Holds m c t.val t.isLt := by
  intro l
  have h2 : ¬t.val % 16 = 15 := by omega
  obtain ⟨q1, q2⟩ := first_block m c t h0 h2
  have hx0 := fun d => Blocks.pred_block m c t d l
  have hx1 := fun r d => Blocks.target_block m c t r d
  have hn := norm_spec (m ((c : Thread nD τ).loc main_arg0)) (iblk m c 0 t) l _ hx0
  have hb : 1024 * (t.val % 16) = 0 := by omega
  have hs : k0_pay1 (F := Ideal) (ix2 (0 : Fin 1) l)
      = segInf (sqDist (m ((c : Thread nD τ).loc main_arg0)) (m ((c : Thread nD τ).loc main_arg1)) (2048 * (t.val / 16) + l.val)) 0
          (1024 * (t.val % 16)) := by
    rw [hb, segInf_zero]; exact Payloads.start_apply _
  refine ⟨(congrFun q1 _).trans ?_, (congrFun q2 _).trans hn⟩
  exact update_spec _ (m ((c : Thread nD τ).loc main_arg1)) (iblk m c 0 t) (iblk m c 1 t) _ _ l _ _ hx0 hx1 hn hs

/-- and after a later block if it held after the block before: the targets seen so far and this block's make one
    longer run. -/
theorem holds_next (c : Dev nD) (t : Fin cfg0.N) (h0 : ¬t.val % 16 = 0)
    (ih : Holds m c (t.val - 1) (Nat.lt_of_le_of_lt (Nat.sub_le _ _) t.isLt)) : Holds m c t.val t.isLt := by
  intro l
  obtain ⟨p1, p2⟩ := ih l
  have e1 : (t.val - 1) / 16 = t.val / 16 := by omega
  have e2 : 1024 * ((t.val - 1) % 16) + 1024 = 1024 * (t.val % 16) := by omega
  rw [e1, e2] at p1
  rw [e1] at p2
  have hx0 := fun d => Blocks.pred_block m c t d l
  have hx1 := fun r d => Blocks.target_block m c t r d
  by_cases h2 : t.val % 16 = 15
  · obtain ⟨q1, q2, -⟩ := last_block m c t h0 h2
    exact ⟨(congrFun q1 _).trans (update_spec _ (m ((c : Thread nD τ).loc main_arg1)) (iblk m c 0 t) (iblk m c 1 t) _ _ l _ _ hx0 hx1 p2 p1),
      (congrFun q2 _).trans p2⟩
  · obtain ⟨q1, q2⟩ := middle_block m c t h0 h2
    exact ⟨(congrFun q1 _).trans (update_spec _ (m ((c : Thread nD τ).loc main_arg1)) (iblk m c 0 t) (iblk m c 1 t) _ _ l _ _ hx0 hx1 p2 p1),
      (congrFun q2 _).trans p2⟩

/-- So it holds after every point, by induction along the grid. -/
theorem holds (c : Dev nD) : ∀ (n : ℕ) (hn : n < cfg0.N), Holds m c n hn := by
  intro n
  induction n with
  | zero => intro hn; exact holds_first m c ⟨0, hn⟩ rfl
  | succ n ih =>
    intro hn
    by_cases h0 : (n + 1) % 16 = 0
    · exact holds_first m c ⟨n + 1, hn⟩ h0
    · exact holds_next m c ⟨n + 1, hn⟩ h0 (ih (Nat.lt_of_succ_lt hn))

/-- At the last block of a sweep the output block holds, in lane `l`, the distance from prediction
    `2048 · (t / 16) + l` to its nearest target. -/
theorem output (c : Dev nD) (t : Fin cfg0.N) (h2 : t.val % 16 = 15) (l : Fin 2048) :
    (outsAt0 m c t.val t.isLt).1 (ix2 (0 : Fin 1) l)
      = nearest (m ((c : Thread nD τ).loc main_arg0)) (m ((c : Thread nD τ).loc main_arg1)) (2048 * (t.val / 16) + l.val) := by
  have h0 : ¬t.val % 16 = 0 := by omega
  obtain ⟨-, -, q3⟩ := last_block m c t h0 h2
  obtain ⟨p1, -⟩ := holds m c t.val t.isLt l
  have e : 1024 * (t.val % 16) + 1024 = 16384 := by omega
  rw [e] at p1
  rw [q3, Payloads.root_apply, p1]
  rfl

end Cert.KernelIdeal.Sweep

end
-- ==== Proof.Result.lean ====
/-
  From the blocks the kernel writes back to the value of its result.

  Only the last point of each sweep writes its output block back: block `t / 16` of the row of 16384 distances.
  Those eight blocks tile the row, so after the run the row holds, at prediction `i`, the distance to its nearest
  target.  The three host lines after the kernel then take the mean of the row.
-/
import proofs.«124139_j48172353192475_2_alg».proof.Proof.Sweep
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Chamfer

variable (m : (ℓ : Loc nD τ sig) → Buf (Elt Ideal) ℓ) (ρ : Dev nD → PrngReg)

/-- The row of distances: at prediction `i`, the distance to its nearest target. -/
def distances (c : Dev nD) : Buf (Elt Ideal) ((c : Thread nD τ).loc main_v1) :=
  fun i : S1x16384.Idx => nearest (m ((c : Thread nD τ).loc main_arg0)) (m ((c : Thread nD τ).loc main_arg1)) (i 1).val

/-- The row read at an index whose second coordinate is `k`. -/
theorem distances_apply (c : Dev nD) (i : S1x16384.Idx) (k : ℕ) (hk : (i (1 : Fin 2)).val = k) :
    distances m c i = nearest (m ((c : Thread nD τ).loc main_arg0)) (m ((c : Thread nD τ).loc main_arg1)) k := by
  subst hk; rfl

/-- The block a last point writes back is its block of the row of distances. -/
theorem flushed_eq (c : Dev nD) (t : Fin cfg0.N) (hf : (cfg0.win 2).flush t = true) :
    (dats m 0 c).flushed 2 t = ((cfg0.win 2).blk t).view.read (Elt Ideal) (distances m c) := by
  have h2 : t.val % 16 = 15 := (flush0_2 t).mp hf
  obtain ⟨-, -, -, -, e4, e5⟩ := Blocks.index_facts t
  show (cfg0.win 2).cut (grid0.coords t) ((dats m 0 c).after 2 t) = _
  rw [after0_2]
  funext y
  have hA : (cfg0.win 2).cut (grid0.coords t) (outsAt0 m c t.val t.isLt).1 y
      = (outsAt0 m c t.val t.isLt).1 ((cfg0.win 2).xinj (grid0.coords t) y) := rfl
  have hB : ∀ G : Buf (Elt Ideal) ((c : Thread nD τ).loc main_v1),
      ((cfg0.win 2).blk t).view.read (Elt Ideal) G y = G (((cfg0.win 2).blk t).view.emb y) := fun G => by
    rw [View.read_apply]; rfl
  refine hA.trans (Eq.trans ?_ (hB (distances m c)).symm)
  obtain ⟨u, l, hul⟩ : ∃ (u : Fin 1) (l : Fin 2048),
      ((cfg0.win 2).xinj (grid0.coords t) y : S1x2048.Idx) = ix2 u l := ⟨_, _, eq_ix2 _⟩
  obtain rfl : u = 0 := Subsingleton.elim _ _
  have hl : (y (1 : Fin 2)).val = l.val := congrArg Fin.val (congrFun hul (1 : Fin 2))
  rw [hul]
  refine (Sweep.output m c t h2 l).trans (distances_apply m c _ _ ?_).symm
  show win0_2.index t (1 : Fin 2) * 2048 + 1 * (y (1 : Fin 2)).val = 2048 * (t.val / 16) + l.val
  rw [e5, hl]; omega

/-- An index of the row is in point `t`'s block iff each coordinate is in the block's range on its axis. -/
theorem mem_block (t : Fin cfg0.N) (i : S1x16384.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v1).slice (win0_2.rect t)).set ↔ _
  rw [View.set_slice_whole, Rect.mem_set_unit]
  exact Iff.rfl

/-- Every prediction is in the block some last point writes back: prediction `i` in that of the sweep `i / 2048`. -/
theorem covered (i : S1x16384.Idx) : ∃ t : Fin cfg0.N, (cfg0.win 2).flush t = true ∧ i ∈ ((cfg0.win 2).blk t).view.set := by
  have hi0 : (i 0).val < 1 := (i 0).isLt
  have hi1 : (i 1).val < 16384 := (i 1).isLt
  have hN : cfg0.N = 128 := N_0
  have hlt : 16 * ((i 1).val / 2048) + 15 < cfg0.N := by rw [hN]; omega
  obtain ⟨-, -, -, -, e4, e5⟩ := Blocks.index_facts ⟨16 * ((i 1).val / 2048) + 15, hlt⟩
  refine ⟨⟨16 * ((i 1).val / 2048) + 15, hlt⟩, (flush0_2 _).mpr (by show (16 * ((i 1).val / 2048) + 15) % 16 = 15; omega), ?_⟩
  rw [mem_block]
  intro a
  match a with
  | ⟨0, _⟩ =>
    show win0_2.index ⟨16 * ((i 1).val / 2048) + 15, hlt⟩ (0 : Fin 2) * 1 ≤ (i 0).val ∧ (i 0).val < win0_2.index ⟨16 * ((i 1).val / 2048) + 15, hlt⟩ (0 : Fin 2) * 1 + 1
    rw [e4]; omega
  | ⟨1, _⟩ =>
    show win0_2.index ⟨16 * ((i 1).val / 2048) + 15, hlt⟩ (1 : Fin 2) * 2048 ≤ (i 1).val ∧ (i 1).val < win0_2.index ⟨16 * ((i 1).val / 2048) + 15, hlt⟩ (1 : Fin 2) * 2048 + 2048
    rw [e5]
    show (16 * ((i 1).val / 2048) + 15) / 16 * 2048 ≤ (i 1).val ∧ (i 1).val < (16 * ((i 1).val / 2048) + 15) / 16 * 2048 + 2048
    omega

/-- So after the run the kernel's output array is the row of distances. -/
theorem final (c : Dev nD) : (dats m 0 c).arrAt 2 cfg0.N = distances m c :=
  (dats m 0 c).arrAt_eq_of_cover 2 (distances m c) (flushed_eq m c) covered

/-- The sum of the row over its index set is the sum of the distances over the predictions. -/
theorem sum_distances (c : Dev nD) :
    ∑ i : S1x16384.Idx, nearest (m ((c : Thread nD τ).loc main_arg0)) (m ((c : Thread nD τ).loc main_arg1)) (i (1 : Fin 2)).val = ∑ k : Fin 16384, nearest (m ((c : Thread nD τ).loc main_arg0)) (m ((c : Thread nD τ).loc main_arg1)) k.val := by
  rw [sum_idx2, Fin.sum_univ_one]

/-- The program's result: the mean of the distances. -/
theorem result_eq (c : Dev nD) :
    Pipeline.afterTail₀ cfgs (dats m) 0 (V0 m) [hostOps1] c main_v4 = loss (m ((c : Thread nD τ).loc main_arg0)) (m ((c : Thread nD τ).loc main_arg1)) := by
  unfold Pipeline.afterTail₀
  show StableHlo.after hostOps1 _ (Proc.devRef .tc main_v4) = _
  after_results
  have hrow : Pipeline.withArrays (cfgs 0).spec c (V0 m c) (fun w => (dats m 0 c).arrAt w (cfgs 0).N) (Proc.devRef .tc main_v1)
      = distances m c :=
    (Pipeline.withArrays_arr spec0 launch0.win.arr_inj c _ _ 2).trans (final m c)
  rw [hrow]
  unfold loss meanOf
  refine congrArg (fun z => mulf (constant (F := Ideal) S_ .f32 0x3F800000#32)
    (Host.divf z (constant (F := Ideal) S_ .f32 0x46800000#32))) (funext fun i => ?_)
  simp only [Host.reduceAdd, Ideal.hostReduceAdd_def]
  refine (Ideal.hostReduceAdd_total reducesTo_S1x16384_S_d0_1 (fun b => b.elim0) _ _ i).trans ?_
  exact congrArg₂ (· + ·) rfl (sum_distances m c)

/-- The run, read: the result at the mean distance, the two clouds unchanged. -/
theorem run : θ_run defs (onTc (τ := τ) (main (F := Ideal))) ⟨m, fun _ => 0, ρ⟩ fun r => ∀ c : Dev nD,
      r.2.mem ((c : Thread nD τ).loc main_v4) = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Result

end
-- ==== Proof.Reference.lean ====
/-
  The reference program's result is the mean distance to the nearest target.

  Entry `(i, j)` of its matrix of distances is the square root of the clipped squared distance from prediction `i` to
  target `j`, the two norms added in the other order and the inner product's factors swapped; the minimum along
  each row, a fold of `min` from `+∞`, is the infimum over the 16384 targets of those roots, which is the root of the
  infimum since the root is monotone and fixes `⊤`; the last lines take the mean.
-/
import proofs.«124139_j48172353192475_2_alg».proof.Proof.Gen.ReferenceIdeal.Read
import proofs.«124139_j48172353192475_2_alg».proof.Proof.Spec
import proofs.«124139_j48172353192475_2_alg».proof.Proof.LibColumns

noncomputable section

open Idealize.ShloMosaic Idealize.ShloMosaic.ValueIdx

namespace Cert.ReferenceIdeal.RefValue

open Cert.ReferenceIdeal Cert.ReferenceIdeal.Gen Cert.ReferenceIdeal.Read Chamfer

theorem coord_fin (A : Cloud) (i : Fin 16384) (d : Fin 3) : coord A i.val d = A (ix2 i d) := coord_of_lt A i.val i.isLt d

/-- Entry `(i, j)` of the matrix of distances. -/
theorem dist_apply (x0 x1 : Cloud) (i j : Fin 16384) :
    val_main_v16 (F := Ideal) x0 x1 (ix2 i j) = Ideal.sqrt (sqDist x0 x1 i.val j.val) := by
  have hP : ∀ k : Fin 3, idx_main_v1 (idx_main_v6 (idx_main_v8 (ix2 i j))) k = ix2 i k := fun k =>
    funext fun a => Fin.ext (by match a with | ⟨0, _⟩ => rfl | ⟨1, _⟩ => rfl)
  have hT : ∀ k : Fin 3, idx_main_v3 (idx_main_v7 (idx_main_v9 (ix2 i j))) k = ix2 j k := fun k =>
    funext fun a => Fin.ext (by match a with | ⟨0, _⟩ => rfl | ⟨1, _⟩ => rfl)
  have hL : ∀ k : Fin 3, lidx_main_v5 (ix2 i j) k = ix2 i k := fun k =>
    funext fun a => Fin.ext (by match a with | ⟨0, _⟩ => rfl | ⟨1, _⟩ => rfl)
  have hR : ∀ k : Fin 3, idx_main_v4 (ridx_main_v5 (ix2 i j) k) = ix2 j k := fun k =>
    funext fun a => Fin.ext (by match a with | ⟨0, _⟩ => rfl | ⟨1, _⟩ => rfl)
  rw [val_main_v16_apply, val_main_v15_apply, val_main_v13_apply, val_main_v10_apply, val_main_v8_apply,
    val_main_v6_apply, val_main_v1_apply, val_main_v9_apply, val_main_v7_apply, val_main_v3_apply,
    val_main_v12_apply, val_main_v11_apply, val_main_v5_apply, val_main_v14_apply]
  unfold sqDist sqNorm Chamfer.inner
  simp only [val_main_v0_apply, val_main_v2_apply, val_main_v4_apply, val_main_cst_apply, val_main_cst_0_apply,
    val_main_cst_1_apply, val_main_cst_2_apply, hP, hT, hL, hR, coord_fin, Ideal.hostUnary_sqrt_def,
    Ideal.maximumf_def, Ideal.subf_def, Ideal.addf_def, Ideal.mulf_def, Ideal.ofBits_def, Ideal.ofBits_zero_f32,
    zero_add]
  have hs : (∑ k : Fin 3, x0 (ix2 i k) * x1 (ix2 j k)) = ∑ k : Fin 3, x1 (ix2 j k) * x0 (ix2 i k) :=
    Finset.sum_congr rfl fun k _ => mul_comm _ _
  rw [hs, add_comm (∑ k : Fin 3, x0 (ix2 i k) * x0 (ix2 i k))]

theorem reduces_rows : S16384x16384.Reduces [1] S16384 := by decide

/-- The minimum along row `i` is the distance from prediction `i` to its nearest target. -/
theorem rowMin_apply (x0 x1 : Cloud) (i : Fin 16384) :
    val_main_v17 (F := Ideal) x0 x1 (ix1 i) = nearest x0 x1 i.val := by
  unfold val_main_v17
  rw [Host.reduce_eq_fold_single FloatOps.minimumf _ _ reducesTo_S16384x16384_S16384_d1 reduces_rows h_S_ (ix1 i)]
  show Finset.fold min (Ideal.ofBits .f32 0x7F800000#32) _ Finset.univ = _
  rw [ofBits_inf_f32, fold_min_top]
  unfold nearest
  rw [sqrt_segInf]
  refine inf_univ_eq_segInf (n := 16384) _ _ 0 fun (k : Fin 16384) => ?_
  have e : reduces_rows.lift (ix1 i) k = ix2 i k :=
    funext fun a => Fin.ext (by match a with | ⟨0, _⟩ => rfl | ⟨1, _⟩ => rfl)
  show val_main_v16 (F := Ideal) x0 x1 (reduces_rows.lift (ix1 i) k) = _
  rw [e, Nat.zero_add]
  exact dist_apply x0 x1 i k

/-- A rank-1 index set is its one coordinate's range. -/
def rowIdx : Fin 16384 ≃ S16384.Idx where
  toFun k := ix1 k
  invFun j := j 0
  left_inv _ := rfl
  right_inv j := (eq_ix1 j).symm

/-- The reference's result is the mean distance to the nearest target. -/
theorem value_eq (x0 x1 : Cloud) : val_main_v20 (F := Ideal) x0 x1 = loss x0 x1 := by
  have hsum : val_main_v18 (F := Ideal) x0 x1
      = fun _ => Ideal.ofBits .f32 0x00000000#32 + ∑ k : Fin 16384, nearest x0 x1 k.val := funext fun i => by
    rw [val_main_v18_apply]
    refine congrArg₂ (· + ·) rfl ?_
    exact (Fintype.sum_equiv rowIdx _ _ fun k => (rowMin_apply x0 x1 k).symm).symm
  show mulf (constant (F := Ideal) S_ .f32 0x3F800000#32)
      (Host.divf (val_main_v18 (F := Ideal) x0 x1) (constant (F := Ideal) S_ .f32 0x46800000#32)) = _
  rw [hsum]
  rfl

end Cert.ReferenceIdeal.RefValue

end
-- ==== Proof.lean ====
/-
  The kernel and its reference compute the same loss over the extended reals.

  Both take two clouds of 16384 points in 3-space and return the mean, over the predictions, of the distance from a
  prediction to its nearest target, the squared distance expanded as |t|² + |p|² - 2⟨t, p⟩ and clipped at zero.
  The kernel sweeps the targets a block at a time, keeps for each prediction the running minimum of the SQUARED
  distances, and takes one square root at the end of the sweep; the reference takes the root of every squared distance
  and then the minimum along each row.  On the extended reals the root (⊥ below zero, ⊤ at ⊤) is monotone, so it
  commutes with `min` and with the infimum over any run of targets, and a run cut into blocks has the infimum of its
  blocks' infima; the two norms are added in opposite orders and the inner product's factors are swapped, which
  commutativity absorbs.  Nothing here needs the inputs finite.

  The modules: Spec (the mathematics, over plain indices), LibColumns (column forms of the layout operations and a
  minimum along an axis), Pieces (what each kind of grid point leaves, as the body's arithmetic of its inputs),
  Payloads (that arithmetic entry by entry), Blocks (the input blocks entry by entry), Sweep (the invariant of the
  grid), Result (the kernel's result), Reference (the reference's result).
-/
import proofs.«124139_j48172353192475_2_alg».proof.Defs
import proofs.«124139_j48172353192475_2_alg».proof.Proof.Gen.Kernel
import proofs.«124139_j48172353192475_2_alg».proof.Proof.Gen.Kernel.Skeleton
import proofs.«124139_j48172353192475_2_alg».proof.Proof.Gen.Kernel.Launch
import proofs.«124139_j48172353192475_2_alg».proof.Proof.Gen.Kernel.Points
import proofs.«124139_j48172353192475_2_alg».proof.Proof.Gen.Kernel.Frame
import proofs.«124139_j48172353192475_2_alg».proof.Proof.Gen.KernelIdeal
import proofs.«124139_j48172353192475_2_alg».proof.Proof.Gen.KernelIdeal.Skeleton
import proofs.«124139_j48172353192475_2_alg».proof.Proof.Gen.KernelIdeal.Launch
import proofs.«124139_j48172353192475_2_alg».proof.Proof.Gen.KernelIdeal.Points
import proofs.«124139_j48172353192475_2_alg».proof.Proof.Gen.KernelIdeal.Frame
import proofs.«124139_j48172353192475_2_alg».proof.Proof.Gen.ReferenceIdeal
import proofs.«124139_j48172353192475_2_alg».proof.Proof.Gen.Pre_finite_inputs
import proofs.«124139_j48172353192475_2_alg».proof.Proof.Gen.ReferenceIdeal.Run
import proofs.«124139_j48172353192475_2_alg».proof.Proof.Gen.ReferenceIdeal.Read
import proofs.«124139_j48172353192475_2_alg».proof.Proof.Result
import proofs.«124139_j48172353192475_2_alg».proof.Proof.Reference
import Idealize.ShloMosaic.Adequacy
import Idealize.ShloMosaic.Init

noncomputable section

namespace Cert.Proof

open Idealize.ShloMosaic Idealize.SL.Sem

/-- The word-level kernel runs and leaves the two clouds as they were. -/
theorem frame_kernel : Cert.frame_Kernel := fun m ρ _ => Cert.Kernel.Gen.frame m ρ

/-- So does the kernel read at the ideal floats. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the mean distance from a prediction to its nearest target, of clouds that agree. -/
theorem algebraic : Cert.algebraic_KernelIdeal_ReferenceIdeal := by
  intro m ρ m' ρ' _ hagree
  refine ⟨fun c => Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
